-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x1 : Shape := ⟨2, ![100000, 1]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S100000x1 .f32) (main_arg2 : IVec S1600000 32) (main_arg3 : IVec S1600000 32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S100000x1 : Shape := ⟨2, ![100000, 1]⟩
abbrev S1600000 : Shape := ⟨1, ![1600000]⟩
abbrev S128x128 : Shape := ⟨2, ![128, 128]⟩
abbrev S128 : Shape := ⟨1, ![128]⟩
abbrev S10000x128 : Shape := ⟨2, ![10000, 128]⟩
abbrev S10000x1 : Shape := ⟨2, ![10000, 1]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 21
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S100000x1, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128, .f32⟩
  | .hbm, ⟨6, _⟩ => ⟨S100000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S128, .f32⟩
  | .local _ .vmem, ⟨12, _⟩ => ⟨S10000x128, .f32⟩
  | .local _ .vmem, ⟨13, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S10000x1_S10000x1_0_0 : ∀ a, (![0, 0] : Fin 2 → Nat) a + S10000x1.size a ≤ S10000x1.size a
  h_S10000x1 : 0 < S10000x1.numel
  broadcasts_S10000x1_S10000x128 : S10000x1.Broadcasts S10000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  shapeCasts_S10000x128_S10000x128 : S10000x128.ShapeCasts S10000x128
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x1 : Shape := ⟨2, ![100000, 1]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x1, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128, .f32⟩
  | .hbm, ⟨6, _⟩ => ⟨S100000x128, .f32⟩
  | .hbm, ⟨7, _⟩ => ⟨S100000x128, .f32⟩
  | .hbm, ⟨8, _⟩ => ⟨S100000x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S100000x1_S100000x128_0_1 : S100000x1.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.GraphLayer.lean ====
/-
  One graph-convolution layer in two dense pieces, index by index on the extended reals.

  Before the edges are walked, every node's feature row is multiplied by the weight matrix and scaled by the node's own
  factor: entry (p, f) of the scaled product is (sum over d of x(p, d) * w(d, f)) * n(p, 0).  After the edge sums, every
  row is scaled by the same factor again and the bias is added: entry (p, f) of the scaled shift is
  y(p, f) * n(p, 0) + c(f).  Both are stated here once, for any extents, together with the two ways each is spelt with
  whole-array operations: as a matrix product into a zero accumulator times a broadcast column (the blockwise form) and
  as the host's dot_general times a broadcast_in_dim (the whole-array form); and, for the shift, with the bias row made
  by a cast and a broadcast, or by two broadcasts.  No rounding and no order of summation is left at the ideal values,
  so each pair of spellings is one function; no finiteness is used, only the operations read at an index.
-/
import Idealize.ShloMosaic.PureOps.Ideal.Laws
import Idealize.ShloMosaic.Lib.ValueIdx
import Idealize.ShloMosaic.Lib.ValueLayout
import Idealize.ShloMosaic.Lib.Pipeline.Value
import proofs.«150335_j4080218931696_1_alg».proof.Proof.LibInnerProducts
import proofs.«150335_j4080218931696_1_alg».proof.Proof.LibKeepdims
import proofs.«150335_j4080218931696_1_alg».proof.Proof.LibInDimLayout
import proofs.«150335_j4080218931696_1_alg».proof.Proof.LibInDimRow

noncomputable section

namespace Cert.GraphLayer

open Idealize.ShloMosaic Idealize.ShloMosaic.ValueIdx
open scoped BigOperators

variable {a k b : ℕ}

/-- Entry (p, f) of the scaled product: row p of x against column f of w, times the row's factor. -/
def scaledProductAt (x : FVec Ideal ⟨2, ![a, k]⟩ .f32) (w : FVec Ideal ⟨2, ![k, b]⟩ .f32) (n : FVec Ideal ⟨2, ![a, 1]⟩ .f32)
    (p : Fin a) (f : Fin b) : EReal :=
  (∑ d : Fin k, x (ix2 p d) * w (ix2 d f)) * n (ix2 p (0 : Fin 1))

/-- The scaled product as a whole array. -/
def scaledProduct (x : FVec Ideal ⟨2, ![a, k]⟩ .f32) (w : FVec Ideal ⟨2, ![k, b]⟩ .f32) (n : FVec Ideal ⟨2, ![a, 1]⟩ .f32) :
    FVec Ideal ⟨2, ![a, b]⟩ .f32 :=
  fun i => scaledProductAt x w n (i 0) (i 1)

theorem scaledProduct_apply (x : FVec Ideal ⟨2, ![a, k]⟩ .f32) (w : FVec Ideal ⟨2, ![k, b]⟩ .f32) (n : FVec Ideal ⟨2, ![a, 1]⟩ .f32)
    (p : Fin a) (f : Fin b) : scaledProduct x w n (ix2 p f) = scaledProductAt x w n p f := rfl

/-- Entry (p, f) of the scaled shift: the entry times the row's factor, plus the column's bias. -/
def scaledShiftAt (y : FVec Ideal ⟨2, ![a, b]⟩ .f32) (n : FVec Ideal ⟨2, ![a, 1]⟩ .f32) (c : FVec Ideal ⟨1, ![b]⟩ .f32)
    (p : Fin a) (f : Fin b) : EReal :=
  y (ix2 p f) * n (ix2 p (0 : Fin 1)) + c (ix1 f)

/-- The scaled shift as a whole array. -/
def scaledShift (y : FVec Ideal ⟨2, ![a, b]⟩ .f32) (n : FVec Ideal ⟨2, ![a, 1]⟩ .f32) (c : FVec Ideal ⟨1, ![b]⟩ .f32) :
    FVec Ideal ⟨2, ![a, b]⟩ .f32 :=
  fun i => scaledShiftAt y n c (i 0) (i 1)

theorem scaledShift_apply (y : FVec Ideal ⟨2, ![a, b]⟩ .f32) (n : FVec Ideal ⟨2, ![a, 1]⟩ .f32) (c : FVec Ideal ⟨1, ![b]⟩ .f32)
    (p : Fin a) (f : Fin b) : scaledShift y n c (ix2 p f) = scaledShiftAt y n c p f := rfl

/-! ## The whole-array spellings -/

/-- The host's dot_general times the factor column spread over the columns is the scaled product. -/
theorem host_scaledProduct (D : DotDims ⟨2, ![a, k]⟩ ⟨2, ![k, b]⟩ ⟨2, ![a, b]⟩) (hD : D = DotDims.plain a k b)
    (prec : Option ContractPrecision) (h : (⟨2, ![a, 1]⟩ : Shape).BroadcastsInDim ⟨2, ![a, b]⟩ ![0, 1])
    (x : FVec Ideal ⟨2, ![a, k]⟩ .f32) (w : FVec Ideal ⟨2, ![k, b]⟩ .f32) (n : FVec Ideal ⟨2, ![a, 1]⟩ .f32) :
    mulf (Host.dotGeneral D prec x w) (broadcastInDim ⟨2, ![a, b]⟩ ![0, 1] h n) = scaledProduct x w n := by
  funext i
  obtain ⟨p, f, rfl⟩ : ∃ (p : Fin a) (f : Fin b), i = ix2 p f := ⟨i 0, i 1, eq_ix2 i⟩
  rw [mulf_apply, InnerProducts.dotGeneral_apply D hD, Cert.LibInDimLayout.inDim_a1_ab_apply]
  rfl

/-- The host's multiply by the spread factor column and add of the spread bias row is the scaled shift. -/
theorem host_scaledShift (h1 : (⟨2, ![a, 1]⟩ : Shape).BroadcastsInDim ⟨2, ![a, b]⟩ ![0, 1])
    (h2 : (⟨1, ![b]⟩ : Shape).BroadcastsInDim ⟨2, ![1, b]⟩ ![1]) (h3 : (⟨2, ![1, b]⟩ : Shape).BroadcastsInDim ⟨2, ![a, b]⟩ ![0, 1])
    (y : FVec Ideal ⟨2, ![a, b]⟩ .f32) (n : FVec Ideal ⟨2, ![a, 1]⟩ .f32) (c : FVec Ideal ⟨1, ![b]⟩ .f32) :
    addf (mulf y (broadcastInDim ⟨2, ![a, b]⟩ ![0, 1] h1 n))
        (broadcastInDim ⟨2, ![a, b]⟩ ![0, 1] h3 (broadcastInDim ⟨2, ![1, b]⟩ ![1] h2 c))
      = scaledShift y n c := by
  funext i
  obtain ⟨p, f, rfl⟩ : ∃ (p : Fin a) (f : Fin b), i = ix2 p f := ⟨i 0, i 1, eq_ix2 i⟩
  rw [addf_apply, mulf_apply, Cert.LibInDimLayout.inDim_a1_ab_apply, Cert.LibInDimRow.inDim_1b_ab_apply,
    Cert.LibInDimRow.inDim_b_1b_apply]
  rfl

/-! ## The blockwise spellings, read at an index -/

/-- A matrix product into the zero accumulator times the factor column broadcast over the columns, at (p, f). The two
    factors may be carried in any float format: at the ideal values a change of format is the identity. -/
theorem block_scaledProduct_apply {φ₁ φ₂ : FTy} (D : DotDims ⟨2, ![a, k]⟩ ⟨2, ![k, b]⟩ ⟨2, ![a, b]⟩) (hD : D = DotDims.plain a k b)
    (prec : Option ContractPrecision) (h : (⟨2, ![a, 1]⟩ : Shape).Broadcasts ⟨2, ![a, b]⟩)
    (x : FVec Ideal ⟨2, ![a, k]⟩ φ₁) (w : FVec Ideal ⟨2, ![k, b]⟩ φ₂) (n : FVec Ideal ⟨2, ![a, 1]⟩ .f32) (p : Fin a) (f : Fin b) :
    mulf (matmul D prec x w (constant (F := Ideal) ⟨2, ![a, b]⟩ .f32 0x00000000#32)) (broadcastTo ⟨2, ![a, b]⟩ n h) (ix2 p f)
      = (∑ d : Fin k, x (ix2 p d) * w (ix2 d f)) * n (ix2 p (0 : Fin 1)) := by
  rw [mulf_apply, InnerProducts.matmul_zero_apply D hD, Cert.LibKeepdims.broadcastTo_a1_ab_apply]

/-- An entry times the broadcast factor column plus the bias vector cast to a row and broadcast over the rows, at (p, f). -/
theorem block_scaledShift_apply (h1 : (⟨2, ![a, 1]⟩ : Shape).Broadcasts ⟨2, ![a, b]⟩)
    (h2 : (⟨1, ![b]⟩ : Shape).ShapeCasts ⟨2, ![1, b]⟩) (h3 : (⟨2, ![1, b]⟩ : Shape).Broadcasts ⟨2, ![a, b]⟩)
    (y : FVec Ideal ⟨2, ![a, b]⟩ .f32) (n : FVec Ideal ⟨2, ![a, 1]⟩ .f32) (c : FVec Ideal ⟨1, ![b]⟩ .f32) (p : Fin a) (f : Fin b) :
    addf (mulf y (broadcastTo ⟨2, ![a, b]⟩ n h1)) (broadcastTo ⟨2, ![a, b]⟩ (shapeCast ⟨2, ![1, b]⟩ c h2) h3) (ix2 p f)
      = y (ix2 p f) * n (ix2 p (0 : Fin 1)) + c (ix1 f) := by
  rw [addf_apply, mulf_apply, Cert.LibKeepdims.broadcastTo_a1_ab_apply, broadcastTo_1b_ab_apply, shapeCast_a_1a_apply]

/-! ## The edge sums and the layer -/

/-- The layer's arrays: node features, one 32-bit word per edge, the same as a column, one message per edge, a scalar. -/
abbrev Nodes : Shape := ⟨2, ![100000, 128]⟩
abbrev EdgeWords : Shape := ⟨1, ![1600000]⟩
abbrev EdgeColumn : Shape := ⟨2, ![1600000, 1]⟩
abbrev Messages : Shape := ⟨2, ![1600000, 128]⟩
abbrev Scalar : Shape := ⟨0, ![]⟩

/-- The sum over incoming edges, as the host spells it: every edge takes the row of its source node (a negative source
    word counted from the end), and the rows are added into a zero array at their destination nodes.  The gather and
    scatter dimension records are parameters: the operation is the same function whichever program names them. -/
def edgeSums (G : GatherDims Nodes EdgeColumn Messages) (S : ScatterDims Nodes EdgeColumn Messages)
    (hz : Scalar.BroadcastsInDim Nodes (![] : Fin 0 → Fin Nodes.rank))
    (hc : Scalar.BroadcastsInDim EdgeWords (![] : Fin 0 → Fin EdgeWords.rank))
    (he : EdgeWords.BroadcastsInDim EdgeColumn (![0] : Fin 1 → Fin EdgeColumn.rank))
    (x : FVec Ideal Nodes .f32) (src dst : IVec EdgeWords 32) : FVec Ideal Nodes .f32 :=
  Host.scatterAdd S (broadcastInDim Nodes ![] hz (constant (F := Ideal) Scalar .f32 0x00000000#32)) (broadcastInDim EdgeColumn ![0] he dst)
    (Host.gather G x (broadcastInDim EdgeColumn ![0] he
      (select (cmpi .slt src (broadcastInDim EdgeWords ![] hc (constantI Scalar 32 0#32)))
        (addi src (broadcastInDim EdgeWords ![] hc (constantI Scalar 32 100000#32))) src)))

/-- The whole layer: the scaled product of features and weights, summed over incoming edges, scaled again and shifted by
    the bias. -/
def layer (G : GatherDims Nodes EdgeColumn Messages) (S : ScatterDims Nodes EdgeColumn Messages)
    (hz : Scalar.BroadcastsInDim Nodes (![] : Fin 0 → Fin Nodes.rank))
    (hc : Scalar.BroadcastsInDim EdgeWords (![] : Fin 0 → Fin EdgeWords.rank))
    (he : EdgeWords.BroadcastsInDim EdgeColumn (![0] : Fin 1 → Fin EdgeColumn.rank))
    (x : FVec Ideal Nodes .f32) (n : FVec Ideal ⟨2, ![100000, 1]⟩ .f32) (src dst : IVec EdgeWords 32)
    (w : FVec Ideal ⟨2, ![128, 128]⟩ .f32) (c : FVec Ideal ⟨1, ![128]⟩ .f32) : FVec Ideal Nodes .f32 :=
  scaledShift (edgeSums G S hz hc he (scaledProduct x w n) src dst) n c

end Cert.GraphLayer

end
-- ==== Proof.Blocks.lean ====
/-
  What one block of each dense stage computes, entry by entry.

  The first stage's body multiplies its block of feature rows by the whole weight matrix (both carried as half-width
  floats into the product; at the ideal values that changes nothing) into a zero accumulator and scales each row by its
  factor: at (p, f) it holds (sum over d of x(p, d) * w(d, f)) * n(p, 0).  The second stage's body scales each row of its
  block by its factor and adds the bias, given a unit row axis and repeated down the rows: at (p, f) it holds
  y(p, f) * n(p, 0) + c(f).
-/
import proofs.«150335_j4080218931696_1_alg».proof.Proof.Gen.KernelIdeal.Skeleton
import proofs.«150335_j4080218931696_1_alg».proof.Proof.GraphLayer

noncomputable section

namespace Cert.KernelIdeal.Blocks

open Cert.KernelIdeal Cert.KernelIdeal.Gen Idealize.ShloMosaic Idealize.ShloMosaic.ValueIdx
open scoped BigOperators

/-- The first stage contracts the block's columns with the weight matrix's rows and has no batch axis. -/
theorem dot_plain : dot_S10000x128_S128x128_S10000x128_1_0_0_1_n_n = DotDims.plain 10000 128 128 := rfl

/-- One block of the first stage, at (p, f). -/
theorem gemmNorm_apply (x0 : FVec Ideal S10000x128 .f32) (x1 : FVec Ideal S128x128 .f32) (x2 : FVec Ideal S10000x1 .f32)
    (p : Fin 10000) (f : Fin 128) :
    k0_pay1 (F := Ideal) x0 x1 x2 (ix2 p f) = (∑ d : Fin 128, x0 (ix2 p d) * x1 (ix2 d f)) * x2 (ix2 p (0 : Fin 1)) := by
  unfold k0_pay1
  exact Cert.GraphLayer.block_scaledProduct_apply (φ₁ := .bf16) (φ₂ := .bf16) _ dot_plain none broadcasts_S10000x1_S10000x128
    (truncf .bf16 x0 bitsLt_bf16_f32) (truncf .bf16 x1 bitsLt_bf16_f32) x2 p f

/-- One block of the second stage, at (p, f). -/
theorem postScale_apply (x0 : FVec Ideal S128 .f32) (x3 : FVec Ideal S10000x128 .f32) (x5 : FVec Ideal S10000x1 .f32)
    (p : Fin 10000) (f : Fin 128) :
    k1_pay1 (F := Ideal) x0 x3 x5 (ix2 p f) = x3 (ix2 p f) * x5 (ix2 p (0 : Fin 1)) + x0 (ix1 f) := by
  unfold k1_pay1
  rw [shapeCast_self]
  exact Cert.GraphLayer.block_scaledShift_apply broadcasts_S10000x1_S10000x128 shapeCasts_S128_S1x128
    broadcasts_S1x128_S10000x128 x3 x5 x0 p f

/-- A block of the first stage whose row p is row r of the whole feature matrix, whose weights are the whole weight
    matrix and whose factor p is factor r, holds at (p, f) the scaled product of the whole arrays at (r, f). -/
theorem gemmNorm_rows (A0 : FVec Ideal S100000x128 .f32) (A1 : FVec Ideal S128x128 .f32) (A2 : FVec Ideal S100000x1 .f32)
    (x0 : FVec Ideal S10000x128 .f32) (x1 : FVec Ideal S128x128 .f32) (x2 : FVec Ideal S10000x1 .f32)
    (r : Fin 100000) (p : Fin 10000) (f : Fin 128)
    (h0 : ∀ d : Fin 128, x0 (ix2 p d) = A0 (ix2 r d)) (h1 : ∀ d : Fin 128, x1 (ix2 d f) = A1 (ix2 d f))
    (h2 : x2 (ix2 p (0 : Fin 1)) = A2 (ix2 r (0 : Fin 1))) :
    k0_pay1 (F := Ideal) x0 x1 x2 (ix2 p f) = Cert.GraphLayer.scaledProduct A0 A1 A2 (ix2 r f) := by
  rw [gemmNorm_apply, Cert.GraphLayer.scaledProduct_apply]
  unfold Cert.GraphLayer.scaledProductAt
  rw [h2]
  exact congrArg (· * A2 (ix2 r (0 : Fin 1))) (Finset.sum_congr rfl fun d _ => by rw [h0 d, h1 d])

/-- A block of the second stage whose row p is row r of the whole array and whose factor p is factor r, with the whole
    bias vector, holds at (p, f) the scaled shift of the whole arrays at (r, f). -/
theorem postScale_rows (A0 : FVec Ideal S100000x128 .f32) (A1 : FVec Ideal S100000x1 .f32) (A2 : FVec Ideal S128 .f32)
    (x0 : FVec Ideal S128 .f32) (x3 : FVec Ideal S10000x128 .f32) (x5 : FVec Ideal S10000x1 .f32)
    (r : Fin 100000) (p : Fin 10000) (f : Fin 128)
    (h0 : x3 (ix2 p f) = A0 (ix2 r f)) (h1 : x5 (ix2 p (0 : Fin 1)) = A1 (ix2 r (0 : Fin 1))) (h2 : x0 (ix1 f) = A2 (ix1 f)) :
    k1_pay1 (F := Ideal) x0 x3 x5 (ix2 p f) = Cert.GraphLayer.scaledShift A0 A1 A2 (ix2 r f) := by
  rw [postScale_apply, Cert.GraphLayer.scaledShift_apply]
  unfold Cert.GraphLayer.scaledShiftAt
  rw [h0, h1, h2]

end Cert.KernelIdeal.Blocks

end
-- ==== Proof.Stages.lean ====
/-
  Each dense stage as a function of whole arrays.

  A stage walks ten blocks of 10000 rows.  Block t of a row-tiled array is rows 10000·t … 10000·t + 9999 (the weight
  matrix and the bias vector are one block, the same at every point), so what point t writes back is block t of ONE
  whole-array function of the arrays the stage finds: the scaled product for the first stage, the scaled shift for the
  second.  The ten blocks cover the 100000 rows (row r lies in block r / 10000), so after the stage its result array holds
  that function everywhere.  Stated for any contents found at the stage's entry.
-/
import proofs.«150335_j4080218931696_1_alg».proof.Proof.Gen.KernelIdeal.Frame
import proofs.«150335_j4080218931696_1_alg».proof.Proof.Blocks
import Idealize.ShloMosaic.Lib.Pipeline.Value

noncomputable section

namespace Cert.KernelIdeal.Stages

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The first stage -/

/-- The printed block index maps of the first stage, decided over its ten points: the row-tiled windows sit at block row
    t, the weight matrix at its one block. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What the first stage's result array ends holding, from the arrays the stage finds. -/
abbrev product (c : Dev nD) : FVec Ideal S100000x128 .f32 :=
  Cert.GraphLayer.scaledProduct (V c main_arg0 : FVec Ideal S100000x128 .f32) (V c main_arg4 : FVec Ideal S128x128 .f32)
    (V c main_arg1 : FVec Ideal S100000x1 .f32)

/-- Point t writes back block t of the scaled product. -/
theorem flushed0_eq (c : Dev nD) (t : Fin cfg0.N) :
    (dat0 V c).flushed 3 t = ((cfg0.win 3).blk t).view.read (Elt Ideal) (product V c) := by
  show (cfg0.win 3).cut (grid0.coords t) ((dat0 V c).after 3 t) = _
  rw [after0_3]
  unfold out0_3
  rw [View.canon_unit_zero hz2]
  simp only [View.ld_unit_zero (S := S10000x128) hz2, View.ld_unit_zero (S := S128x128) hz2, View.ld_unit_zero (S := S10000x1) hz2]
  obtain ⟨e00, e01, e10, e11, e20, e21, e30, e31⟩ := index0 t
  have hN10 : cfg0.N = 10 := N_0
  have hN : t.val < 10 := by have := t.isLt; omega
  funext j
  have hj0 : (j 0).val < 10000 := (j 0).isLt
  have hj1 : (j 1).val < 128 := (j 1).isLt
  have hr : t.val * 10000 + (j 0).val < 100000 := by omega
  have hj : j = ix2 (n0 := 10000) (n1 := 128) (j 0) (j 1) := eq_ix2 j
  have he : ((cfg0.win 3).blk t).view.emb j = ix2 (n0 := 100000) (n1 := 128) ⟨t.val * 10000 + (j 0).val, hr⟩ (j 1) := by
    funext a; apply Fin.ext
    match a with
    | ⟨0, _⟩ => show win0_3.index t (0 : Fin 2) * 10000 + 1 * (j 0).val = t.val * 10000 + (j 0).val; omega
    | ⟨1, _⟩ => show win0_3.index t (1 : Fin 2) * 128 + 1 * (j 1).val = (j 1).val; omega
  show k0_pay1 (F := Ideal) (iblk0 V c 0 t) (iblk0 V c 1 t) (iblk0 V c 2 t) j = product V c (((cfg0.win 3).blk t).view.emb j)
  rw [he]
  refine (congrArg (k0_pay1 (F := Ideal) (iblk0 V c 0 t) (iblk0 V c 1 t) (iblk0 V c 2 t)) hj).trans ?_
  refine Cert.KernelIdeal.Blocks.gemmNorm_rows _ _ _ (iblk0 V c 0 t) (iblk0 V c 1 t) (iblk0 V c 2 t)
    ⟨t.val * 10000 + (j 0).val, hr⟩ (j 0) (j 1) (fun d => ?_) (fun d => ?_) ?_
  · show V c main_arg0 (((cfg0.win 0).blk t).view.emb (ix2 (j 0) d)) = V c main_arg0 _
    refine congrArg (V c main_arg0) (funext fun a => Fin.ext ?_)
    match a with
    | ⟨0, _⟩ => show win0_0.index t (0 : Fin 2) * 10000 + 1 * (j 0).val = t.val * 10000 + (j 0).val; omega
    | ⟨1, _⟩ => show win0_0.index t (1 : Fin 2) * 128 + 1 * d.val = d.val; omega
  · show V c main_arg4 (((cfg0.win 1).blk t).view.emb (ix2 d (j 1))) = V c main_arg4 _
    refine congrArg (V c main_arg4) (funext fun a => Fin.ext ?_)
    match a with
    | ⟨0, _⟩ => show win0_1.index t (0 : Fin 2) * 128 + 1 * d.val = d.val; omega
    | ⟨1, _⟩ => show win0_1.index t (1 : Fin 2) * 128 + 1 * (j 1).val = (j 1).val; omega
  · show V c main_arg1 (((cfg0.win 2).blk t).view.emb (ix2 (j 0) (0 : Fin 1))) = V c main_arg1 _
    refine congrArg (V c main_arg1) (funext fun a => Fin.ext ?_)
    match a with
    | ⟨0, _⟩ => show win0_2.index t (0 : Fin 2) * 10000 + 1 * (j 0).val = t.val * 10000 + (j 0).val; omega
    | ⟨1, _⟩ => show win0_2.index t (1 : Fin 2) * 1 + 1 * 0 = 0; omega

/-- An index of the result array is in point t's block iff each coordinate is in the block's range on its axis. -/
theorem mem_blk0 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v0).slice (win0_3.rect t)).set ↔ _
  rw [View.set_slice_whole, Rect.mem_set_unit]
  exact Iff.rfl

/-- Row r lies in block r / 10000. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨e00, e01, e10, e11, e20, e21, e30, e31⟩ := index0 t
  have ht : t.val = (i 0).val / 10000 := rfl
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- After the first stage its result array is the scaled product of the arrays it found. -/
theorem final0 (c : Dev nD) : (dat0 V c).arrAt 3 cfg0.N = product V c :=
  (dat0 V c).arrAt_eq_of_cover 3 (product V c) (fun t _ => flushed0_eq V c t) cover0

/-! ## The second stage -/

/-- The printed block index maps of the second stage, decided over its ten points: the row-tiled windows sit at block
    row t, the bias vector at its one block. -/
theorem index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What the second stage's result array ends holding, from the arrays the stage finds. -/
abbrev shift (c : Dev nD) : FVec Ideal S100000x128 .f32 :=
  Cert.GraphLayer.scaledShift (V c main_v10 : FVec Ideal S100000x128 .f32) (V c main_arg1 : FVec Ideal S100000x1 .f32)
    (V c main_arg5 : FVec Ideal S128 .f32)

/-- Point t writes back block t of the scaled shift. -/
theorem flushed1_eq (c : Dev nD) (t : Fin cfg1.N) :
    (dat1 V c).flushed 3 t = ((cfg1.win 3).blk t).view.read (Elt Ideal) (shift V c) := by
  show (cfg1.win 3).cut (grid1.coords t) ((dat1 V c).after 3 t) = _
  rw [after1_3]
  unfold out1_3
  rw [View.canon_unit_zero hz2]
  simp only [View.ld_unit_zero (S := S10000x128) hz2, View.ld_unit_zero (S := S128) hz1, View.ld_unit_zero (S := S10000x1) hz2]
  obtain ⟨e00, e01, e10, e11, e20, e30, e31⟩ := index1 t
  have hN10 : cfg1.N = 10 := N_1
  have hN : t.val < 10 := by have := t.isLt; omega
  funext j
  have hj0 : (j 0).val < 10000 := (j 0).isLt
  have hj1 : (j 1).val < 128 := (j 1).isLt
  have hr : t.val * 10000 + (j 0).val < 100000 := by omega
  have hj : j = ix2 (n0 := 10000) (n1 := 128) (j 0) (j 1) := eq_ix2 j
  have he : ((cfg1.win 3).blk t).view.emb j = ix2 (n0 := 100000) (n1 := 128) ⟨t.val * 10000 + (j 0).val, hr⟩ (j 1) := by
    funext a; apply Fin.ext
    match a with
    | ⟨0, _⟩ => show win1_3.index t (0 : Fin 2) * 10000 + 1 * (j 0).val = t.val * 10000 + (j 0).val; omega
    | ⟨1, _⟩ => show win1_3.index t (1 : Fin 2) * 128 + 1 * (j 1).val = (j 1).val; omega
  show k1_pay1 (F := Ideal) (iblk1 V c 2 t) (iblk1 V c 0 t) (iblk1 V c 1 t) j = shift V c (((cfg1.win 3).blk t).view.emb j)
  rw [he]
  refine (congrArg (k1_pay1 (F := Ideal) (iblk1 V c 2 t) (iblk1 V c 0 t) (iblk1 V c 1 t)) hj).trans ?_
  refine Cert.KernelIdeal.Blocks.postScale_rows _ _ _ (iblk1 V c 2 t) (iblk1 V c 0 t) (iblk1 V c 1 t)
    ⟨t.val * 10000 + (j 0).val, hr⟩ (j 0) (j 1) ?_ ?_ ?_
  · show V c main_v10 (((cfg1.win 0).blk t).view.emb (ix2 (j 0) (j 1))) = V c main_v10 _
    refine congrArg (V c main_v10) (funext fun a => Fin.ext ?_)
    match a with
    | ⟨0, _⟩ => show win1_0.index t (0 : Fin 2) * 10000 + 1 * (j 0).val = t.val * 10000 + (j 0).val; omega
    | ⟨1, _⟩ => show win1_0.index t (1 : Fin 2) * 128 + 1 * (j 1).val = (j 1).val; omega
  · show V c main_arg1 (((cfg1.win 1).blk t).view.emb (ix2 (j 0) (0 : Fin 1))) = V c main_arg1 _
    refine congrArg (V c main_arg1) (funext fun a => Fin.ext ?_)
    match a with
    | ⟨0, _⟩ => show win1_1.index t (0 : Fin 2) * 10000 + 1 * (j 0).val = t.val * 10000 + (j 0).val; omega
    | ⟨1, _⟩ => show win1_1.index t (1 : Fin 2) * 1 + 1 * 0 = 0; omega
  · show V c main_arg5 (((cfg1.win 2).blk t).view.emb (ix1 (j 1))) = V c main_arg5 _
    refine congrArg (V c main_arg5) (funext fun a => Fin.ext ?_)
    match a with
    | ⟨0, _⟩ => show win1_2.index t (0 : Fin 1) * 128 + 1 * (j 1).val = (j 1).val; omega

/-- An index of the result array is in point t's block iff each coordinate is in the block's range on its axis. -/
theorem mem_blk1 (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v11).slice (win1_3.rect t)).set ↔ _
  rw [View.set_slice_whole, Rect.mem_set_unit]
  exact Iff.rfl

/-- Row r lies in block r / 10000. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  obtain ⟨e00, e01, e10, e11, e20, e30, e31⟩ := index1 t
  have ht : t.val = (i 0).val / 10000 := rfl
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- After the second stage its result array is the scaled shift of the arrays it found. -/
theorem final1 (c : Dev nD) : (dat1 V c).arrAt 3 cfg1.N = shift V c :=
  (dat1 V c).arrAt_eq_of_cover 3 (shift V c) (fun t _ => flushed1_eq V c t) cover1

end Cert.KernelIdeal.Stages

end
-- ==== Proof.KernelValue.lean ====
/-
  The kernel program's run with its result named, and the result as the layer of its arguments.

  The program is two dense stages with the host's edge sums between them.  Its run is the same walk through the three
  segments that shows the arguments unchanged; read at the result buffer as well, it says the result ends at what the
  second stage leaves there.  The second stage leaves the scaled shift of what it finds: the edge sums the host wrote, the
  factors and the bias, which nothing before it touches.  The host's operations read the first stage's result array, which
  is the scaled product of features, weights and factors as launched.  Put together, the result is the layer.
-/
import proofs.«150335_j4080218931696_1_alg».proof.Proof.Gen.KernelIdeal.Frame
import proofs.«150335_j4080218931696_1_alg».proof.Proof.Stages
import Idealize.ShloMosaic.Lib.StableHlo.Run

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution terminates with the result buffer at the contents the last segment leaves there and the
    arguments as launched. -/
theorem run_named : θ_run defs (onTc (τ := τ) (main (F := Ideal))) ⟨m, fun _ => 0, ρ⟩ (fun r => ∀ c : Dev nD,
      r.2.mem ((c.tc : Thread nD τ).loc main_v11) = V3 m ρ c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v11 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

/-! ## The result read back through the segments -/

/-- What the second stage finds in the factor column and in the bias vector is what was launched: no segment before it
    writes them, and it only reads them. -/
theorem found_arg1 (c : Dev nD) : V2 m ρ c main_arg1 = m ((c : Thread nD τ).loc main_arg1) :=
  (((W3_arr m ρ c 1).trans (((dat1 (V2 m ρ) c).arrAt_in 1 rfl _).trans (A_eq1 (V2 m ρ) c 1))).symm).trans (W3_main_arg1 m ρ c)
theorem found_arg5 (c : Dev nD) : V2 m ρ c main_arg5 = m ((c : Thread nD τ).loc main_arg5) :=
  (((W3_arr m ρ c 2).trans (((dat1 (V2 m ρ) c).arrAt_in 2 rfl _).trans (A_eq1 (V2 m ρ) c 2))).symm).trans (W3_main_arg5 m ρ c)

/-- After the first stage its result array holds the scaled product of the launched features, weights and factors. -/
theorem found_v0 (c : Dev nD) : (W1 m ρ c (Proc.devRef .tc main_v0) : FVec Ideal S100000x128 .f32)
    = Cert.GraphLayer.scaledProduct (m ((c : Thread nD τ).loc main_arg0) : FVec Ideal S100000x128 .f32)
        (m ((c : Thread nD τ).loc main_arg4) : FVec Ideal S128x128 .f32) (m ((c : Thread nD τ).loc main_arg1) : FVec Ideal S100000x1 .f32) :=
  (W1_arr m ρ c 3).trans (Cert.KernelIdeal.Stages.final0 (V0 m ρ) c)

/-- The first stage leaves the two edge-word arrays as launched. -/
theorem found_arg2 (c : Dev nD) : W1 m ρ c (Proc.devRef .tc main_arg2) = m ((c : Thread nD τ).loc main_arg2) :=
  W1_of_ne m ρ c main_arg2 (by decide)
theorem found_arg3 (c : Dev nD) : W1 m ρ c (Proc.devRef .tc main_arg3) = m ((c : Thread nD τ).loc main_arg3) :=
  W1_of_ne m ρ c main_arg3 (by decide)

/-- What the second stage finds in its first operand: the host's edge sums of the first stage's result. -/
theorem found_v10 (c : Dev nD) : (V2 m ρ c main_v10 : FVec Ideal S100000x128 .f32)
    = Cert.GraphLayer.edgeSums gather_S100000x128_S1600000x1_S1600000x128_1_0_n_n_0_1_1128
        scatter_S100000x128_S1600000x1_S1600000x128_1_0_0_1 bcast_S_S100000x128 bcast_S_S1600000 bcast_S1600000_S1600000x1_0
        (W1 m ρ c (Proc.devRef .tc main_v0)) (W1 m ρ c (Proc.devRef .tc main_arg2)) (W1 m ρ c (Proc.devRef .tc main_arg3)) := by
  show StableHlo.after hostOps1 (W1 m ρ c) (Proc.devRef .tc main_v10) = _
  dsimp only [hostOps1]
  after_results
  rfl

/-- The program's result is the layer of its arguments as launched. -/
theorem result_eq (c : Dev nD) : (V3 m ρ c main_v11 : FVec Ideal S100000x128 .f32)
    = Cert.GraphLayer.layer gather_S100000x128_S1600000x1_S1600000x128_1_0_n_n_0_1_1128
        scatter_S100000x128_S1600000x1_S1600000x128_1_0_0_1 bcast_S_S100000x128 bcast_S_S1600000 bcast_S1600000_S1600000x1_0
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine ((W3_arr m ρ c 3).trans (Cert.KernelIdeal.Stages.final1 (V2 m ρ) c)).trans ?_
  unfold Cert.GraphLayer.layer
  show Cert.GraphLayer.scaledShift (V2 m ρ c main_v10 : FVec Ideal S100000x128 .f32) (V2 m ρ c main_arg1 : FVec Ideal S100000x1 .f32)
    (V2 m ρ c main_arg5 : FVec Ideal S128 .f32) = _
  rw [found_v10, found_arg1, found_arg5, found_v0, found_arg2, found_arg3]

/-- The run, read: the result buffer ends at the layer of the launched arguments, which end unchanged. -/
theorem run : θ_run defs (onTc (τ := τ) (main (F := Ideal))) ⟨m, fun _ => 0, ρ⟩ (fun r => ∀ c : Dev nD,
      r.2.mem ((c.tc : Thread nD τ).loc main_v11)
        = Cert.GraphLayer.layer gather_S100000x128_S1600000x1_S1600000x128_1_0_n_n_0_1_1128
            scatter_S100000x128_S1600000x1_S1600000x128_1_0_0_1 bcast_S_S100000x128 bcast_S_S1600000 bcast_S1600000_S1600000x1_0
            (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_named m ρ)

end Cert.KernelIdeal.Layer

end
-- ==== Proof.ReferenceValue.lean ====
/-
  The reference's result is the layer of its arguments.

  The reference computes the same five steps with whole-array operations: the host's dot_general of features and weights
  times the spread factor column is the scaled product; the edge sums are the host's gather and scatter as they stand; the
  multiply by the spread factor column and the add of the spread bias row are the scaled shift.
-/
import proofs.«150335_j4080218931696_1_alg».proof.Proof.Gen.ReferenceIdeal.Run
import proofs.«150335_j4080218931696_1_alg».proof.Proof.GraphLayer

noncomputable section

namespace Cert.ReferenceIdeal.Layer

open Cert.ReferenceIdeal Cert.ReferenceIdeal.Gen Idealize.ShloMosaic

/-- The reference's product contracts the features' columns with the weight matrix's rows and has no batch axis. -/
theorem dot_plain : dot_S100000x128_S128x128_S100000x128_1_0_0_1_n_n = DotDims.plain 100000 128 128 := rfl

/-- The composed term of the reference's run, of any six arrays, is the layer of them. -/
theorem result_eq (x : FVec Ideal S100000x128 .f32) (n : FVec Ideal S100000x1 .f32) (src dst : IVec S1600000 32)
    (w : FVec Ideal S128x128 .f32) (c : FVec Ideal S128 .f32) :
    addf (mulf (Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 dst)
          (Host.gather gather_S100000x128_S1600000x1_S1600000x128_1_0_n_n_0_1_1128
            (mulf (Host.dotGeneral dot_S100000x128_S128x128_S100000x128_1_0_0_1_n_n none x w)
              (broadcastInDim S100000x128 ![0, 1] bcast_S100000x1_S100000x128_0_1 n))
            (broadcastInDim S1600000x1 ![0] bcast_S1600000_S1600000x1_0
              (select (cmpi .slt src (broadcastInDim S1600000 ![] bcast_S_S1600000 (constantI S_ 32 0#32)))
                (addi src (broadcastInDim S1600000 ![] bcast_S_S1600000 (constantI S_ 32 100000#32))) src))))
        (broadcastInDim S100000x128 ![0, 1] bcast_S100000x1_S100000x128_0_1 n))
      (broadcastInDim S100000x128 ![0, 1] bcast_S1x128_S100000x128_0_1 (broadcastInDim S1x128 ![1] bcast_S128_S1x128_1 c))
    = Cert.GraphLayer.layer gather_S100000x128_S1600000x1_S1600000x128_1_0_n_n_0_1_1128
        scatter_S100000x128_S1600000x1_S1600000x128_1_0_0_1 bcast_S_S100000x128 bcast_S_S1600000 bcast_S1600000_S1600000x1_0
        x n src dst w c := by
  have e1 := Cert.GraphLayer.host_scaledProduct (a := 100000) (k := 128) (b := 128)
    dot_S100000x128_S128x128_S100000x128_1_0_0_1_n_n dot_plain none bcast_S100000x1_S100000x128_0_1 x w n
  rw [e1, Cert.GraphLayer.host_scaledShift (a := 100000) (b := 128)]
  rfl

end Cert.ReferenceIdeal.Layer

end
-- ==== Proof.lean ====
/-
  One graph-convolution layer, out = (A-sum of ((h · W) * norm)) * norm + bias, computed two ways and equal on the extended reals.

  The kernel program runs two dense stages over ten blocks of 10000 nodes each — the product of the feature rows with the
  weight matrix scaled by each node's factor, and, after the host has summed every node's incoming edges, a second scaling
  by the same factor plus the bias — with the host's gather and scatter-add between them.  The reference computes the same
  five steps with whole-array operations.  At the ideal values a change of float format is the identity, a matrix product
  into a zero accumulator and the host's dot_general are the same inner products, and a blockwise stage is one whole-array
  function because its blocks tile the rows; the edge sums are the same host operations on both sides, applied to equal
  arrays, and are never opened.  So both results are ONE function of the six arguments, the layer; no law that needs
  finiteness is used, and the precondition is never opened.

  The three frames are the generated runs (the reference's with its result dropped); no operation of the kernel was
  rewritten to idealize it, so there is nothing to preserve; the value claim sets the two runs side by side at the layer
  of the arguments.
-/
import proofs.«150335_j4080218931696_1_alg».proof.Defs
import proofs.«150335_j4080218931696_1_alg».proof.Proof.Gen.Kernel
import proofs.«150335_j4080218931696_1_alg».proof.Proof.Gen.Kernel.Frame
import proofs.«150335_j4080218931696_1_alg».proof.Proof.Gen.KernelIdeal
import proofs.«150335_j4080218931696_1_alg».proof.Proof.Gen.KernelIdeal.Frame
import proofs.«150335_j4080218931696_1_alg».proof.Proof.Gen.ReferenceIdeal
import proofs.«150335_j4080218931696_1_alg».proof.Proof.Gen.ReferenceIdeal.Run
import proofs.«150335_j4080218931696_1_alg».proof.Proof.Gen.Pre_finite_inputs
import proofs.«150335_j4080218931696_1_alg».proof.Proof.KernelValue
import proofs.«150335_j4080218931696_1_alg».proof.Proof.ReferenceValue

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no rewrite to account for. -/
theorem preserves : Cert.preserves_Kernel_KernelIdeal := trivial

/-- The two programs name the same gather and the same scatter. -/
theorem gather_eq : Cert.ReferenceIdeal.gather_S100000x128_S1600000x1_S1600000x128_1_0_n_n_0_1_1128
    = Cert.KernelIdeal.gather_S100000x128_S1600000x1_S1600000x128_1_0_n_n_0_1_1128 := rfl
theorem scatter_eq : Cert.ReferenceIdeal.scatter_S100000x128_S1600000x1_S1600000x128_1_0_0_1
    = Cert.KernelIdeal.scatter_S100000x128_S1600000x1_S1600000x128_1_0_0_1 := rfl

/-- Both programs end with their result at the layer of the arguments. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5, Cert.ReferenceIdeal.Layer.result_eq, gather_eq, scatter_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
